-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : IVec S1024 1) (main_arg2 : FVec F S1024x256 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4096x128 : Shape := ⟨2, ![4096, 128]⟩
abbrev S1024x1024 : Shape := ⟨2, ![1024, 1024]⟩
abbrev S1024x128 : Shape := ⟨2, ![1024, 128]⟩
abbrev S1024x1 : Shape := ⟨2, ![1024, 1]⟩
abbrev S1x256 : Shape := ⟨2, ![1, 256]⟩
abbrev S1x128 : Shape := ⟨2, ![1, 128]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .i1⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1024, .i32⟩
  | .hbm, ⟨10, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024, .i32⟩
  | .local _ .vmem, ⟨3, _⟩ => ⟨S1024x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S1024x128, .f32⟩
  | .local _ .vmem, ⟨11, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  natLt_1_32 : 1 < 32
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x256 : S1024x1.Broadcasts S1024x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .i32 = 32 ∨ (Rect.block (s := S1024) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S4096x128.size a
  hwx0_9 : ∀ i : grid0.Coords, EltTy.bits .f32 = 32 ∨ (Rect.block (s := S4096x128) S1024x128.size (cc0_transform_9 i) (hinb0_9 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1024x1 : Shape := ⟨2, ![1024, 1]⟩
abbrev S4096x256 : Shape := ⟨2, ![4096, 256]⟩
abbrev S1x256 : Shape := ⟨2, ![1, 256]⟩
abbrev S_ : Shape := ⟨0, ![]⟩
abbrev S4096x128 : Shape := ⟨2, ![4096, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .i1⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1024, .f32⟩
  | .hbm, ⟨10, _⟩ => ⟨S1024x1, .f32⟩
  | .hbm, ⟨11, _⟩ => ⟨S1024x256, .f32⟩
  | .hbm, ⟨12, _⟩ => ⟨S1024x256, .f32⟩
  | .hbm, ⟨13, _⟩ => ⟨S4096x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x1024_S1024x256_S4096x256_1_0_0_1_n_n_wf : DotDims.WF S4096x1024 S1024x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.Mlp.lean ====
/-
  The function both programs compute, one output row at a time.

  A row `xr` of the input (1024 features) is projected through the masked weight matrix, passed through two hidden
  layers with a rectifier each, and through a last affine layer to 128 classes:

    h⁰[j] = ∑ k, xr[k] · (W[k,j] · mask[k])
    h¹[j] = max (∑ k, h⁰[k] · W1[k,j] + b1[j]) 0
    h²[j] = max (∑ k, h¹[k] · W2[k,j] + b2[j]) 0
    out[q] = ∑ k, h²[k] · W3[k,q] + b3[q]

  on the extended reals, every sum exact. The rectifier's threshold `z` is kept as a parameter (both programs write the
  same word for it). Row `r` of the result depends on row `r` of the input only: this is what lets the computation be
  cut into blocks of rows.
-/
import Idealize.ShloMosaic.Lib.ValueIdx

noncomputable section

namespace Cert.Mlp

open Idealize.ShloMosaic Idealize.ShloMosaic.ValueIdx

/-- The masked projection of one row: `∑ k, xr[k] · (W[k,j] · mask[k])`. -/
def proj (xr mk : Fin 1024 → EReal) (W : (⟨2, ![1024, 256]⟩ : Shape).Idx → EReal) (j : Fin 256) : EReal :=
  ∑ k : Fin 1024, xr k * (W (ix2 k j) * mk k)

/-- One affine layer on a row: `∑ k, h[k] · W[k,j] + b[j]`. -/
def dense {K B : ℕ} (h : Fin K → EReal) (W : (⟨2, ![K, B]⟩ : Shape).Idx → EReal) (b : (⟨1, ![B]⟩ : Shape).Idx → EReal)
    (j : Fin B) : EReal :=
  (∑ k : Fin K, h k * W (ix2 k j)) + b (ix1 j)

/-- The whole network on one row, read at class `q`. -/
def mlp (z : EReal) (xr mk : Fin 1024 → EReal) (W : (⟨2, ![1024, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal) (q : Fin 128) : EReal :=
  dense (fun j => max (dense (fun j => max (dense (proj xr mk W) W1 b1 j) z) W2 b2 j) z) W3 b3 q

/-- The network on every row of a 4096-row input: the result array, index by index. -/
def out (z : EReal) (x : (⟨2, ![4096, 1024]⟩ : Shape).Idx → EReal) (mk : Fin 1024 → EReal)
    (W : (⟨2, ![1024, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal) :
    (⟨2, ![4096, 128]⟩ : Shape).Idx → EReal :=
  fun i => mlp z (fun k => x (ix2 (i 0 : Fin 4096) k)) mk W W1 b1 W2 b2 W3 b3 (i 1 : Fin 128)

theorem out_apply (z : EReal) (x : (⟨2, ![4096, 1024]⟩ : Shape).Idx → EReal) (mk : Fin 1024 → EReal)
    (W : (⟨2, ![1024, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal) (r : Fin 4096) (q : Fin 128) :
    out z x mk W W1 b1 W2 b2 W3 b3 (ix2 r q) = mlp z (fun k => x (ix2 r k)) mk W W1 b1 W2 b2 W3 b3 q := rfl

end Cert.Mlp

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.LibCastBroadcast.lean ====
/-
  A vector laid along one axis of a matrix and repeated along the other, read at an entry.

  A length-`a` vector cast to a column `[a, 1]` and broadcast to `[a, b]` holds, at `(p, c)`, the vector's entry `p`
  (every column is the vector); a length-`b` vector cast to a row `[1, b]` and broadcast to `[a, b]` holds, at `(p, c)`,
  the vector's entry `c` (every row is the vector).
-/
import Idealize.ShloMosaic.Lib.Pipeline.Value
import Idealize.ShloMosaic.Lib.ValueIdx
import Idealize.ShloMosaic.Lib.ValueLayout

noncomputable section

namespace Cert.Lib.CastBroadcast

open Idealize.ShloMosaic Idealize.ShloMosaic.ValueIdx

variable {α : Type}

/-- An `[a]` vector cast to a column `[a, 1]` reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector as the columns of a matrix: cast to `[a, 1]`, broadcast to `[a, b]`, read at `(p, c)`, it is the vector at `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- A vector as the rows of a matrix: cast to `[1, b]`, broadcast to `[a, b]`, read at `(p, c)`, it is the vector at `c`. -/
theorem row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.Lib.CastBroadcast

end
-- ==== Proof.KernelRow.lean ====
/-
  What the kernel's body leaves in one output block, read at an entry.

  The body's value is a chain of whole-block operations: the mask words turned into floats (1 where the word is not zero,
  0 where it is), laid along the columns of the first weight matrix and multiplied into it; the block of input rows
  times that masked matrix; two hidden layers (a product with a weight matrix, the bias laid along the rows, the
  maximum with the zero word); and a last product plus the last bias. On the extended reals a change of float format is
  the identity and a matrix product into the zero accumulator is the exact sum over the contraction index, so entry
  `(p, q)` of the block is the network `Cert.Mlp.mlp` applied to row `p` of the input block, read at `q`.
-/
import proofs.«141755_g31095563223590_cont_sun_c4_403_18_alg».proof.Proof.Gen.KernelIdeal.Skeleton
import proofs.«141755_g31095563223590_cont_sun_c4_403_18_alg».proof.Proof.Mlp
import proofs.«141755_g31095563223590_cont_sun_c4_403_18_alg».proof.Proof.LibMatmulPlain
import proofs.«141755_g31095563223590_cont_sun_c4_403_18_alg».proof.Proof.LibCastBroadcast

noncomputable section

namespace Cert.KernelRow

open Idealize.ShloMosaic Idealize.ShloMosaic.ValueIdx
open Cert.KernelIdeal Cert.KernelIdeal.Gen
open Cert.Mlp Cert.Lib.CastBroadcast Cert.Lib.MatmulPlain

/-- The word both programs write for the rectifier's threshold (it denotes zero; its value is never needed). -/
abbrev zeroWord : EReal := Ideal.ofBits .f32 0x00000000#32

/-- A 32-bit mask word as a float: one where the word is not zero, zero where it is. -/
def maskVal (w : BitVec 32) : EReal := FloatOps.sitofp (F := Ideal) .f32 ((IntOp.cmpi .ne w (0#32)).setWidth 32)

/-- A mask bit widened to a 32-bit word and read back this way is the bit's own value: the word is not zero exactly
    when the bit is set. -/
theorem maskVal_setWidth (b : BitVec 1) : maskVal (b.setWidth 32) = FloatOps.uitofp (F := Ideal) .f32 b := by
  rcases BitVec.eq_zero_or_eq_one b with h | h <;> subst h
  · show (((((IntOp.cmpi .ne ((0#1 : BitVec 1).setWidth 32) (0#32)).setWidth 32).toInt : ℤ) : ℝ) : EReal)
      = ((((0#1 : BitVec 1).toNat : ℕ) : ℝ) : EReal)
    have e1 : ((IntOp.cmpi .ne ((0#1 : BitVec 1).setWidth 32) (0#32)).setWidth 32).toInt = 0 := by decide
    have e2 : (0#1 : BitVec 1).toNat = 0 := by decide
    rw [e1, e2]; simp
  · show (((((IntOp.cmpi .ne ((1#1 : BitVec 1).setWidth 32) (0#32)).setWidth 32).toInt : ℤ) : ℝ) : EReal)
      = ((((1#1 : BitVec 1).toNat : ℕ) : ℝ) : EReal)
    have e1 : ((IntOp.cmpi .ne ((1#1 : BitVec 1).setWidth 32) (0#32)).setWidth 32).toInt = 1 := by decide
    have e2 : (1#1 : BitVec 1).toNat = 1 := by decide
    rw [e1, e2]; simp

/-- The mask block as floats. -/
def maskF (P1 : Vec Ideal S1024 .i32) : FVec Ideal S1024 .f32 :=
  sitofp .f32 (extui 32 (cmpi .ne P1 (constantI S1024 32 0#32)) natLt_1_32)

theorem maskF_apply (P1 : Vec Ideal S1024 .i32) (k : Fin 1024) : maskF P1 (ix1 k) = maskVal (P1 (ix1 k)) := rfl

/-- The masked first weight matrix: each row `k` of `W` scaled by the mask's entry `k`. -/
def maskedW (P0 : Vec Ideal S1024x256 .f32) (P1 : Vec Ideal S1024 .i32) : FVec Ideal S1024x256 .f32 :=
  mulf P0 (broadcastTo S1024x256 (shapeCast S1024x1 (maskF P1) shapeCasts_S1024_S1024x1) broadcasts_S1024x1_S1024x256)

theorem maskedW_apply (P0 : Vec Ideal S1024x256 .f32) (P1 : Vec Ideal S1024 .i32) (k : Fin 1024) (j : Fin 256) :
    maskedW P0 P1 (ix2 k j) = P0 (ix2 k j) * maskVal (P1 (ix1 k)) := by
  show P0 (ix2 k j) * (broadcastTo S1024x256 (shapeCast S1024x1 (maskF P1) shapeCasts_S1024_S1024x1) broadcasts_S1024x1_S1024x256) (ix2 k j) = _
  rw [column_apply (maskF P1) shapeCasts_S1024_S1024x1 broadcasts_S1024x1_S1024x256 k j, maskF_apply]

/-- The input block times the masked matrix. -/
def projected (P0 : Vec Ideal S1024x256 .f32) (P1 : Vec Ideal S1024 .i32) (P2 : Vec Ideal S1024x1024 .f32) : FVec Ideal S1024x256 .f32 :=
  matmul dot_S1024x1024_S1024x256_S1024x256_1_0_0_1_n_n none (truncf .bf16 P2 bitsLt_bf16_f32)
    (truncf .bf16 (maskedW P0 P1) bitsLt_bf16_f32) (constant S1024x256 .f32 0x00000000#32)

theorem projected_apply (P0 : Vec Ideal S1024x256 .f32) (P1 : Vec Ideal S1024 .i32) (P2 : Vec Ideal S1024x1024 .f32)
    (p : Fin 1024) (j : Fin 256) :
    projected P0 P1 P2 (ix2 p j) = proj (fun k => P2 (ix2 p k)) (fun k => maskVal (P1 (ix1 k))) P0 j := by
  refine (matmul_plain_zero_apply (A := 1024) (K := 1024) (B := 256) none (truncf .bf16 P2 bitsLt_bf16_f32)
    (truncf .bf16 (maskedW P0 P1) bitsLt_bf16_f32) p j).trans ?_
  unfold proj
  refine Finset.sum_congr rfl fun k _ => ?_
  show P2 (ix2 p k) * maskedW P0 P1 (ix2 k j) = _
  rw [maskedW_apply]

/-- One hidden layer on a block: the product with the weights, the bias along the rows, the maximum with the zero word. -/
def hidden (h : FVec Ideal S1024x256 .f32) (W : Vec Ideal S256x256 .f32) (b : Vec Ideal S256 .f32) : FVec Ideal S1024x256 .f32 :=
  maximumf (addf (matmul dot_S1024x256_S256x256_S1024x256_1_0_0_1_n_n none (truncf .bf16 h bitsLt_bf16_f32)
      (truncf .bf16 W bitsLt_bf16_f32) (constant S1024x256 .f32 0x00000000#32))
    (broadcastTo S1024x256 (shapeCast S1x256 b shapeCasts_S256_S1x256) broadcasts_S1x256_S1024x256))
    (broadcast S1024x256 (Scalar.ofBits .f32 0x00000000#32))

theorem hidden_apply (h : FVec Ideal S1024x256 .f32) (W : Vec Ideal S256x256 .f32) (b : Vec Ideal S256 .f32)
    (p : Fin 1024) (j : Fin 256) (hr : Fin 256 → EReal) (hh : ∀ k, h (ix2 p k) = hr k) :
    hidden h W b (ix2 p j) = max (dense hr W b j) zeroWord := by
  show max ((matmul dot_S1024x256_S256x256_S1024x256_1_0_0_1_n_n none (truncf .bf16 h bitsLt_bf16_f32)
      (truncf .bf16 W bitsLt_bf16_f32) (constant S1024x256 .f32 0x00000000#32)) (ix2 p j)
    + (broadcastTo S1024x256 (shapeCast S1x256 b shapeCasts_S256_S1x256) broadcasts_S1x256_S1024x256) (ix2 p j)) zeroWord = _
  rw [row_apply b shapeCasts_S256_S1x256 broadcasts_S1x256_S1024x256 p j]
  have e := matmul_plain_zero_apply (A := 1024) (K := 256) (B := 256) none (truncf .bf16 h bitsLt_bf16_f32)
    (truncf .bf16 W bitsLt_bf16_f32) p j
  refine congrArg (fun s => max (s + b (ix1 j)) zeroWord) (e.trans ?_)
  refine Finset.sum_congr rfl fun k _ => ?_
  show h (ix2 p k) * W (ix2 k j) = _
  rw [hh k]

/-- The body's two payloads are that chain. -/
theorem pay_eq (P0 : Vec Ideal S1024x256 .f32) (P1 : Vec Ideal S1024 .i32) (P2 : Vec Ideal S1024x1024 .f32)
    (P3 : Vec Ideal S256x256 .f32) (P4 : Vec Ideal S256 .f32) (P5 : Vec Ideal S256x256 .f32) (P6 : Vec Ideal S256 .f32)
    (P7 : Vec Ideal S256x128 .f32) (P8 : Vec Ideal S128 .f32) :
    k0_pay1 (k0_pay2 P0 P1 P2 P3 P4 P5 P6 P7) (k0_pay3 P8)
      = addf (matmul dot_S1024x256_S256x128_S1024x128_1_0_0_1_n_n none
            (truncf .bf16 (hidden (hidden (projected P0 P1 P2) P3 P4) P5 P6) bitsLt_bf16_f32)
            (truncf .bf16 P7 bitsLt_bf16_f32) (constant S1024x128 .f32 0x00000000#32))
          (broadcastTo S1024x128 (shapeCast S1x128 P8 shapeCasts_S128_S1x128) broadcasts_S1x128_S1024x128) := rfl

/-- ENTRY `(p, q)` OF THE BLOCK the body stores is the network on row `p` of the input block, at class `q`: the input
    row and the mask's floats named (`xr`, `mk`), so that a caller says what they are where the blocks sit in their arrays. -/
theorem pay_apply (P0 : Vec Ideal S1024x256 .f32) (P1 : Vec Ideal S1024 .i32) (P2 : Vec Ideal S1024x1024 .f32)
    (P3 : Vec Ideal S256x256 .f32) (P4 : Vec Ideal S256 .f32) (P5 : Vec Ideal S256x256 .f32) (P6 : Vec Ideal S256 .f32)
    (P7 : Vec Ideal S256x128 .f32) (P8 : Vec Ideal S128 .f32) (p : Fin 1024) (q : Fin 128)
    (xr mk : Fin 1024 → EReal) (hx : ∀ k, P2 (ix2 p k) = xr k) (hm : ∀ k, maskVal (P1 (ix1 k)) = mk k) :
    k0_pay1 (k0_pay2 P0 P1 P2 P3 P4 P5 P6 P7) (k0_pay3 P8) (ix2 p q) = mlp zeroWord xr mk P0 P3 P4 P5 P6 P7 P8 q := by
  rw [pay_eq]
  show (matmul dot_S1024x256_S256x128_S1024x128_1_0_0_1_n_n none
      (truncf .bf16 (hidden (hidden (projected P0 P1 P2) P3 P4) P5 P6) bitsLt_bf16_f32)
      (truncf .bf16 P7 bitsLt_bf16_f32) (constant S1024x128 .f32 0x00000000#32)) (ix2 p q)
    + (broadcastTo S1024x128 (shapeCast S1x128 P8 shapeCasts_S128_S1x128) broadcasts_S1x128_S1024x128) (ix2 p q) = _
  rw [row_apply P8 shapeCasts_S128_S1x128 broadcasts_S1x128_S1024x128 p q]
  have e := matmul_plain_zero_apply (A := 1024) (K := 256) (B := 128) none
    (truncf .bf16 (hidden (hidden (projected P0 P1 P2) P3 P4) P5 P6) bitsLt_bf16_f32) (truncf .bf16 P7 bitsLt_bf16_f32) p q
  unfold mlp
  refine congrArg (fun s => s + P8 (ix1 q)) (e.trans ?_)
  refine Finset.sum_congr rfl fun k _ => ?_
  show hidden (hidden (projected P0 P1 P2) P3 P4) P5 P6 (ix2 p k) * P7 (ix2 k q) = _
  rw [hidden_apply (hidden (projected P0 P1 P2) P3 P4) P5 P6 p k
    (fun j => max (dense (proj xr mk P0) P3 P4 j) zeroWord) (fun j =>
      hidden_apply (projected P0 P1 P2) P3 P4 p j (proj xr mk P0) (fun i => by
        rw [projected_apply]
        unfold proj
        refine Finset.sum_congr rfl fun k' _ => ?_
        show P2 (ix2 p k') * (P0 (ix2 k' i) * maskVal (P1 (ix1 k'))) = _
        rw [hx k', hm k']))]

end Cert.KernelRow

end
-- ==== Proof.KernelBlocks.lean ====
/-
  From the kernel's blocks to its result array.

  The grid has four points; point `t` reads rows `1024·t … 1024·t + 1023` of the input (all 1024 features), the whole
  mask (as 32-bit words, widened from the mask bits before the launch), the whole of every weight matrix and bias, and
  writes rows `1024·t … 1024·t + 1023` of the result (all 128 classes). Since a row of the network's result depends on
  the same row of the input only, what point `t` writes is block `t` of the one whole-array function `Cert.Mlp.out`; the
  four blocks tile the 4096 rows, so after the run the result array IS that function of the argument arrays.
-/
import proofs.«141755_g31095563223590_cont_sun_c4_403_18_alg».proof.Proof.Gen.KernelIdeal.Value
import proofs.«141755_g31095563223590_cont_sun_c4_403_18_alg».proof.Proof.KernelRow
import Idealize.ShloMosaic.Lib.StableHlo.Run

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.Mlp Cert.KernelRow

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The result array as one function of the argument arrays: the network on every row of the input, the mask bits
    read as floats. -/
def result (c : Dev nD) : S4096x128.Idx → EReal :=
  out zeroWord (m ((c : Thread nD τ).loc main_arg0))
    (fun k => FloatOps.uitofp (F := Ideal) .f32 (m ((c : Thread nD τ).loc main_arg1) (ix1 k)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The printed index maps, decided over the four points: the input's row block moves with the result's, every other
    window stays at block zero, and the result's row block is one of 0 … 3. -/
theorem idx_facts : ∀ t : Fin cfg0.N,
    win0_0.index t (0 : Fin 2) = win0_9.index t (0 : Fin 2) ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) ≤ 3 ∧ win0_9.index t (1 : Fin 2) = 0 :=
  (by decide +kernel : ∀ t : Fin grid0.N, _)

/-- Every row block of the result is some point's. -/
theorem idx_onto : ∀ b : Fin 4, ∃ t : Fin cfg0.N, win0_9.index t = ![b.val, 0] :=
  (by decide +kernel : ∀ b : Fin 4, ∃ t : Fin grid0.N, win0_9.index t = ![b.val, 0])

/-! ## The arrays as the region finds them -/

/-- The mask array the region stages: the mask bits widened to 32-bit words by the one operation before the launch. -/
theorem maskWords (c : Dev nD) :
    (V m c main_v0 : S1024.Idx → BitVec 32) = extui 32 (m ((c : Thread nD τ).loc main_arg1)) natLt_1_32 := by
  dsimp only [Gen.V, Gen.hostOps0]; after_results

/-! ## Each window's block at a point -/

/-- The input's block at point `t`, at `(p, k)`: row `1024 · (the result's row block) + p` of the input, feature `k`. -/
theorem inputBlk (c : Dev nD) (t : Fin cfg0.N) (p k : Fin 1024) (R : Fin 4096)
    (hR : R.val = win0_9.index t (0 : Fin 2) * 1024 + p.val) :
    iblk m c 0 t (ix2 p k) = m ((c : Thread nD τ).loc main_arg0) (ix2 R k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = R.val; omega
  | ⟨1, _⟩ => show win0_0.index t (1 : Fin 2) * 1024 + 1 * k.val = k.val; omega

/-- The mask's block is the whole array of mask words. -/
theorem maskBlk (c : Dev nD) (t : Fin cfg0.N) (k : Fin 1024) :
    iblk m c 1 t (ix1 k) = (m ((c : Thread nD τ).loc main_arg1) (ix1 k)).setWidth 32 := by
  obtain ⟨-, -, e, -⟩ := idx_facts t
  show V m c main_v0 (((cfg0.win 1).blk t).view.emb (ix1 k)) = _
  rw [maskWords]
  refine congrArg (fun i => (m ((c : Thread nD τ).loc main_arg1) i).setWidth 32) (funext fun a => Fin.ext ?_)
  match a with
  | ⟨0, _⟩ => show win0_1.index t (0 : Fin 1) * 1024 + 1 * k.val = k.val; omega

theorem wBlk (c : Dev nD) (t : Fin cfg0.N) : iblk m c 2 t = m ((c : Thread nD τ).loc main_arg2) := by
  obtain ⟨-, -, -, e0, e1, -⟩ := idx_facts t
  funext y
  show V m c main_arg2 (((cfg0.win 2).blk t).view.emb y) = _
  rw [V_main_arg2]
  refine congrArg (m ((c : Thread nD τ).loc main_arg2)) (funext fun a => Fin.ext ?_)
  match a with
  | ⟨0, _⟩ => show win0_2.index t (0 : Fin 2) * 1024 + 1 * (y 0).val = (y 0).val; omega
  | ⟨1, _⟩ => show win0_2.index t (1 : Fin 2) * 256 + 1 * (y 1).val = (y 1).val; omega

theorem w1Blk (c : Dev nD) (t : Fin cfg0.N) : iblk m c 3 t = m ((c : Thread nD τ).loc main_arg3) := by
  obtain ⟨-, -, -, -, -, e0, e1, -⟩ := idx_facts t
  funext y
  show V m c main_arg3 (((cfg0.win 3).blk t).view.emb y) = _
  rw [V_main_arg3]
  refine congrArg (m ((c : Thread nD τ).loc main_arg3)) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem b1Blk (c : Dev nD) (t : Fin cfg0.N) : iblk m c 4 t = m ((c : Thread nD τ).loc main_arg4) := by
  obtain ⟨-, -, -, -, -, -, -, e0, -⟩ := idx_facts t
  funext y
  show V m c main_arg4 (((cfg0.win 4).blk t).view.emb y) = _
  rw [V_main_arg4]
  refine congrArg (m ((c : Thread nD τ).loc main_arg4)) (funext fun a => Fin.ext ?_)
  match a with
  | ⟨0, _⟩ => show win0_4.index t (0 : Fin 1) * 256 + 1 * (y 0).val = (y 0).val; omega

theorem w2Blk (c : Dev nD) (t : Fin cfg0.N) : iblk m c 5 t = m ((c : Thread nD τ).loc main_arg5) := by
  obtain ⟨-, -, -, -, -, -, -, -, e0, e1, -⟩ := idx_facts t
  funext y
  show V m c main_arg5 (((cfg0.win 5).blk t).view.emb y) = _
  rw [V_main_arg5]
  refine congrArg (m ((c : Thread nD τ).loc main_arg5)) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem b2Blk (c : Dev nD) (t : Fin cfg0.N) : iblk m c 6 t = m ((c : Thread nD τ).loc main_arg6) := by
  obtain ⟨-, -, -, -, -, -, -, -, -, -, e0, -⟩ := idx_facts t
  funext y
  show V m c main_arg6 (((cfg0.win 6).blk t).view.emb y) = _
  rw [V_main_arg6]
  refine congrArg (m ((c : Thread nD τ).loc main_arg6)) (funext fun a => Fin.ext ?_)
  match a with
  | ⟨0, _⟩ => show win0_6.index t (0 : Fin 1) * 256 + 1 * (y 0).val = (y 0).val; omega

theorem w3Blk (c : Dev nD) (t : Fin cfg0.N) : iblk m c 7 t = m ((c : Thread nD τ).loc main_arg7) := by
  obtain ⟨-, -, -, -, -, -, -, -, -, -, -, e0, e1, -⟩ := idx_facts t
  funext y
  show V m c main_arg7 (((cfg0.win 7).blk t).view.emb y) = _
  rw [V_main_arg7]
  refine congrArg (m ((c : Thread nD τ).loc main_arg7)) (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem b3Blk (c : Dev nD) (t : Fin cfg0.N) : iblk m c 8 t = m ((c : Thread nD τ).loc main_arg8) := by
  obtain ⟨-, -, -, -, -, -, -, -, -, -, -, -, -, e0, -⟩ := idx_facts t
  funext y
  show V m c main_arg8 (((cfg0.win 8).blk t).view.emb y) = _
  rw [V_main_arg8]
  refine congrArg (m ((c : Thread nD τ).loc main_arg8)) (funext fun a => Fin.ext ?_)
  match a with
  | ⟨0, _⟩ => show win0_8.index t (0 : Fin 1) * 128 + 1 * (y 0).val = (y 0).val; omega

/-! ## What a point writes back -/

/-- WHAT POINT `t` WRITES BACK is block `t` of the result function. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero off2]
  simp only [View.ld_unit_zero (S := S1024x256) off2, View.ld_unit_zero (S := S1024) off1,
    View.ld_unit_zero (S := S1024x1024) off2, View.ld_unit_zero (S := S256x256) off2, View.ld_unit_zero (S := S256) off1,
    View.ld_unit_zero (S := S256x128) off2, View.ld_unit_zero (S := S128) off1]
  obtain ⟨-, -, -, -, -, -, -, -, -, -, -, -, -, -, hb, h1⟩ := idx_facts t
  funext j
  obtain ⟨p, q, rfl⟩ : ∃ (p : Fin 1024) (q : Fin 128), j = ix2 p q := ⟨j 0, j 1, eq_ix2 j⟩
  have hrow : win0_9.index t (0 : Fin 2) * 1024 + p.val < 4096 := by have := p.isLt; omega
  show k0_pay1 (k0_pay2 (iblk m c 2 t) (iblk m c 1 t) (iblk m c 0 t) (iblk m c 3 t) (iblk m c 4 t) (iblk m c 5 t)
      (iblk m c 6 t) (iblk m c 7 t)) (k0_pay3 (iblk m c 8 t)) (ix2 p q)
    = result m c (((cfg0.win 9).blk t).view.emb (ix2 p q))
  refine (pay_apply (iblk m c 2 t) (iblk m c 1 t) (iblk m c 0 t) (iblk m c 3 t) (iblk m c 4 t) (iblk m c 5 t)
    (iblk m c 6 t) (iblk m c 7 t) (iblk m c 8 t) p q
    (fun k => m ((c : Thread nD τ).loc main_arg0) (ix2 (⟨win0_9.index t (0 : Fin 2) * 1024 + p.val, hrow⟩ : Fin 4096) k))
    (fun k => FloatOps.uitofp (F := Ideal) .f32 (m ((c : Thread nD τ).loc main_arg1) (ix1 k)))
    (fun k => inputBlk m c t p k ⟨win0_9.index t (0 : Fin 2) * 1024 + p.val, hrow⟩ rfl)
    (fun k => by rw [maskBlk m c t k, maskVal_setWidth])).trans ?_
  rw [wBlk m c t, w1Blk m c t, b1Blk m c t, w2Blk m c t, b2Blk m c t, w3Blk m c t, b3Blk m c t]
  have he : ((cfg0.win 9).blk t).view.emb (ix2 p q)
      = ix2 (⟨win0_9.index t (0 : Fin 2) * 1024 + p.val, hrow⟩ : Fin 4096) q := by
    funext a; apply Fin.ext
    match a with
    | ⟨0, _⟩ => show win0_9.index t (0 : Fin 2) * 1024 + 1 * p.val = win0_9.index t (0 : Fin 2) * 1024 + p.val; omega
    | ⟨1, _⟩ => show win0_9.index t (1 : Fin 2) * 128 + 1 * q.val = q.val; omega
  rw [he]
  rfl

/-! ## The blocks tile the array -/

/-- An index of the result array is in point `t`'s block iff each coordinate is in the block's range on its axis. -/
theorem mem_blk (t : Fin cfg0.N) (i : S4096x128.Idx) :
    i ∈ ((cfg0.win 9).blk t).view.set ↔ ∀ a : Fin 2, win0_9.index t a * S1024x128.size a ≤ (i a).val
      ∧ (i a).val < win0_9.index t a * S1024x128.size a + S1024x128.size a := by
  show i ∈ ((View.whole main_v1).slice (win0_9.rect t)).set ↔ _
  rw [View.set_slice_whole, Rect.mem_set_unit]
  exact Iff.rfl

/-- Every index of the result array is in the block of the point that holds its row: row `r` is in row block `r / 1024`. -/
theorem covered (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  obtain ⟨t, ht⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 128 ≤ (i 1).val ∧ (i 1).val < win0_9.index t (1 : Fin 2) * 128 + 128
    omega

/-- THE RESULT ARRAY after the run is the network on every row of the input. -/
theorem final (c : Dev nD) : (dats m 0 c).arrAt 9 cfg0.N = result m c :=
  (dats m 0 c).arrAt_eq_of_cover 9 (result m c) (fun t _ => flushed_eq m c t) covered

/-! ## The run, read -/

/-- The kernel's run re-posted: the result array at the network of the argument arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelBlocks

end
-- ==== Proof.RefRow.lean ====
/-
  The reference program's result, read at an entry.

  The reference applies the same network to the whole input at once: the mask turned into floats, laid along the columns
  of the first weight matrix and multiplied into it; the input times that; two hidden layers with a rectifier; the last
  affine layer. Read one operation at a time, entry `(r, q)` of the result is the network `Cert.Mlp.mlp` on row `r` of the
  input, at class `q`: a matrix product's entry involves one row of its left operand only, and every other operation is
  entrywise or repeats a vector along an axis.
-/
import proofs.«141755_g31095563223590_cont_sun_c4_403_18_alg».proof.Proof.Gen.ReferenceIdeal.Read
import proofs.«141755_g31095563223590_cont_sun_c4_403_18_alg».proof.Proof.Mlp

noncomputable section

namespace Cert.RefRow

open Idealize.ShloMosaic Idealize.ShloMosaic.ValueIdx
open Cert.ReferenceIdeal Cert.ReferenceIdeal.Read
open Cert.Mlp

/-- The word the reference writes for the rectifier's threshold. -/
abbrev zeroWord : EReal := Ideal.ofBits .f32 0x00000000#32

/-- The mask bit as a float: its value as a natural number. -/
abbrev maskBit (b : BitVec 1) : EReal := FloatOps.uitofp (F := Ideal) .f32 b

variable (x0 : (⟨S4096x1024, .f32⟩ : BufTy).Contents (Elt Ideal)) (x1 : (⟨S1024, .i1⟩ : BufTy).Contents (Elt Ideal))
  (x2 : (⟨S1024x256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal))

/-- The mask laid along the columns: entry `(k, j)` is the mask's float at `k`. -/
theorem mask_at (k : Fin 1024) (j : Fin 256) : val_main_v2 (F := Ideal) x1 (ix2 k j) = maskBit (x1 (ix1 k)) := by
  rw [val_main_v2_apply, val_main_v1_apply, val_main_v0_apply]
  exact congrArg (fun i => maskBit (x1 i)) (funext fun a => by match a with | ⟨0, _⟩ => rfl)

/-- The masked first weight matrix. -/
theorem maskedW_at (k : Fin 1024) (j : Fin 256) :
    val_main_v3 (F := Ideal) x1 x2 (ix2 k j) = x2 (ix2 k j) * maskBit (x1 (ix1 k)) := by
  rw [val_main_v3_apply, mask_at]; rfl

/-- The input times the masked matrix: row `r`'s projection. -/
theorem projected_at (r : Fin 4096) (j : Fin 256) :
    val_main_v4 (F := Ideal) x0 x1 x2 (ix2 r j) = proj (fun k => x0 (ix2 r k)) (fun k => maskBit (x1 (ix1 k))) x2 j := by
  rw [val_main_v4_apply]
  unfold proj
  refine Finset.sum_congr rfl fun k _ => ?_
  have el : lidx_main_v4 (ix2 r j) k = ix2 r k := funext fun a => by match a with | ⟨0, _⟩ => rfl | ⟨1, _⟩ => rfl
  have er : ridx_main_v4 (ix2 r j) k = ix2 k j := funext fun a => by match a with | ⟨0, _⟩ => rfl | ⟨1, _⟩ => rfl
  rw [el, er, maskedW_at]

/-- The first bias laid along the rows. -/
theorem bias1_at (r : Fin 4096) (j : Fin 256) : val_main_v7 (F := Ideal) x4 (ix2 r j) = x4 (ix1 j) := by
  rw [val_main_v7_apply, val_main_v6_apply]
  exact congrArg x4 (funext fun a => by match a with | ⟨0, _⟩ => rfl)

/-- The zero word repeated over a block. -/
theorem zero0_at (i : S4096x256.Idx) : val_main_call0_v0 (F := Ideal) i = zeroWord := by
  rw [val_main_call0_v0_apply, val_main_call0_cst_apply]; rfl

theorem zero1_at (i : S4096x256.Idx) : val_main_call1_v0 (F := Ideal) i = zeroWord := by
  rw [val_main_call1_v0_apply, val_main_call1_cst_apply]; rfl

/-- The first hidden layer. -/
theorem hidden1_at (r : Fin 4096) (j : Fin 256) :
    val_main_v9 (F := Ideal) x0 x1 x2 x3 x4 (ix2 r j)
      = max (dense (proj (fun k => x0 (ix2 r k)) (fun k => maskBit (x1 (ix1 k))) x2) x3 x4 j) zeroWord := by
  rw [val_main_v9_apply, zero0_at, val_main_v8_apply, bias1_at, val_main_v5_apply]
  unfold dense
  refine congrArg (fun s => max (s + x4 (ix1 j)) zeroWord) (Finset.sum_congr rfl fun k _ => ?_)
  have el : lidx_main_v5 (ix2 r j) k = ix2 r k := funext fun a => by match a with | ⟨0, _⟩ => rfl | ⟨1, _⟩ => rfl
  have er : ridx_main_v5 (ix2 r j) k = ix2 k j := funext fun a => by match a with | ⟨0, _⟩ => rfl | ⟨1, _⟩ => rfl
  rw [el, er, projected_at]

/-- The second bias laid along the rows. -/
theorem bias2_at (r : Fin 4096) (j : Fin 256) : val_main_v12 (F := Ideal) x6 (ix2 r j) = x6 (ix1 j) := by
  rw [val_main_v12_apply, val_main_v11_apply]
  exact congrArg x6 (funext fun a => by match a with | ⟨0, _⟩ => rfl)

/-- The second hidden layer. -/
theorem hidden2_at (r : Fin 4096) (j : Fin 256) :
    val_main_v14 (F := Ideal) x0 x1 x2 x3 x4 x5 x6 (ix2 r j)
      = max (dense (fun j => max (dense (proj (fun k => x0 (ix2 r k)) (fun k => maskBit (x1 (ix1 k))) x2) x3 x4 j) zeroWord) x5 x6 j) zeroWord := by
  rw [val_main_v14_apply, zero1_at, val_main_v13_apply, bias2_at, val_main_v10_apply]
  unfold dense
  refine congrArg (fun s => max (s + x6 (ix1 j)) zeroWord) (Finset.sum_congr rfl fun k _ => ?_)
  have el : lidx_main_v10 (ix2 r j) k = ix2 r k := funext fun a => by match a with | ⟨0, _⟩ => rfl | ⟨1, _⟩ => rfl
  have er : ridx_main_v10 (ix2 r j) k = ix2 k j := funext fun a => by match a with | ⟨0, _⟩ => rfl | ⟨1, _⟩ => rfl
  rw [el, er, hidden1_at]
  rfl

/-- The last bias laid along the rows. -/
theorem bias3_at (r : Fin 4096) (q : Fin 128) : val_main_v17 (F := Ideal) x8 (ix2 r q) = x8 (ix1 q) := by
  rw [val_main_v17_apply, val_main_v16_apply]
  exact congrArg x8 (funext fun a => by match a with | ⟨0, _⟩ => rfl)

/-- ENTRY `(r, q)` OF THE REFERENCE'S RESULT is the network on row `r` of the input, at class `q`. -/
theorem result_at (r : Fin 4096) (q : Fin 128) :
    val_main_v18 (F := Ideal) x0 x1 x2 x3 x4 x5 x6 x7 x8 (ix2 r q)
      = mlp zeroWord (fun k => x0 (ix2 r k)) (fun k => maskBit (x1 (ix1 k))) x2 x3 x4 x5 x6 x7 x8 q := by
  rw [val_main_v18_apply, bias3_at, val_main_v15_apply]
  unfold mlp
  show (∑ k : Fin 256, _) + x8 (ix1 q) = dense _ x7 x8 q
  unfold dense
  refine congrArg (fun s => s + x8 (ix1 q)) (Finset.sum_congr rfl fun k _ => ?_)
  have el : lidx_main_v15 (ix2 r q) k = ix2 r k := funext fun a => by match a with | ⟨0, _⟩ => rfl | ⟨1, _⟩ => rfl
  have er : ridx_main_v15 (ix2 r q) k = ix2 k q := funext fun a => by match a with | ⟨0, _⟩ => rfl | ⟨1, _⟩ => rfl
  rw [el, er, hidden2_at]
  rfl

/-- THE REFERENCE'S RESULT ARRAY is the network on every row. -/
theorem result_eq :
    val_main_v18 (F := Ideal) x0 x1 x2 x3 x4 x5 x6 x7 x8
      = out zeroWord x0 (fun k => maskBit (x1 (ix1 k))) x2 x3 x4 x5 x6 x7 x8 := by
  funext i
  obtain ⟨r, q, rfl⟩ : ∃ (r : Fin 4096) (q : Fin 128), i = ix2 r q := ⟨i 0, i 1, eq_ix2 i⟩
  rw [result_at, out_apply]

end Cert.RefRow

end
-- ==== Proof.lean ====
/-
  A fused masked-feature network against its plain description: the claims.

  Both programs compute, for each of 4096 input rows, the network of `Cert.Mlp`: the row projected through the first
  weight matrix with its rows scaled by the feature mask, two hidden layers with a rectifier, a last affine layer to 128
  classes. The kernel cuts the rows into four blocks of 1024 and does one block per grid point, keeping the mask (as
  32-bit words), the weights and the biases whole; the reference does all rows at once. On the extended reals the two
  agree entry by entry with no algebra beyond reading each operation at an index: a matrix product into the zero
  accumulator and the reference's contraction are the same exact sum over the shared axis; rounding the product's
  operands to a shorter float format is the identity; the mask bit widened to a word, compared with zero and converted is
  the bit's own value, as is the bit converted directly; both rectifiers are the maximum with the same zero word.
  No step needs the inputs to be finite.

  `Cert.KernelBlocks.run` states the kernel's run with its result array at `Cert.Mlp.out` of the arguments (block `t` of the
  result is what grid point `t` writes, and the four blocks tile the rows); `Cert.RefRow.result_eq` states that the reference's
  result term is the same function. The frames are the generated ones (the reference's is its run with the result dropped);
  the idealization rewrote nothing, so there is nothing to preserve.
-/
import proofs.«141755_g31095563223590_cont_sun_c4_403_18_alg».proof.Defs
import proofs.«141755_g31095563223590_cont_sun_c4_403_18_alg».proof.Proof.Gen.Kernel
import proofs.«141755_g31095563223590_cont_sun_c4_403_18_alg».proof.Proof.Gen.Kernel.Skeleton
import proofs.«141755_g31095563223590_cont_sun_c4_403_18_alg».proof.Proof.Gen.Kernel.Launch
import proofs.«141755_g31095563223590_cont_sun_c4_403_18_alg».proof.Proof.Gen.Kernel.Points
import proofs.«141755_g31095563223590_cont_sun_c4_403_18_alg».proof.Proof.Gen.Kernel.Frame
import proofs.«141755_g31095563223590_cont_sun_c4_403_18_alg».proof.Proof.Gen.KernelIdeal
import proofs.«141755_g31095563223590_cont_sun_c4_403_18_alg».proof.Proof.Gen.KernelIdeal.Skeleton
import proofs.«141755_g31095563223590_cont_sun_c4_403_18_alg».proof.Proof.Gen.KernelIdeal.Launch
import proofs.«141755_g31095563223590_cont_sun_c4_403_18_alg».proof.Proof.Gen.KernelIdeal.Points
import proofs.«141755_g31095563223590_cont_sun_c4_403_18_alg».proof.Proof.Gen.KernelIdeal.Frame
import proofs.«141755_g31095563223590_cont_sun_c4_403_18_alg».proof.Proof.Gen.ReferenceIdeal
import proofs.«141755_g31095563223590_cont_sun_c4_403_18_alg».proof.Proof.Gen.Pre_finite_inputs
import proofs.«141755_g31095563223590_cont_sun_c4_403_18_alg».proof.Proof.Gen.KernelIdeal.Value
import proofs.«141755_g31095563223590_cont_sun_c4_403_18_alg».proof.Proof.Gen.ReferenceIdeal.Run
import proofs.«141755_g31095563223590_cont_sun_c4_403_18_alg».proof.Proof.Gen.ReferenceIdeal.Read
import proofs.«141755_g31095563223590_cont_sun_c4_403_18_alg».proof.Proof.KernelBlocks
import proofs.«141755_g31095563223590_cont_sun_c4_403_18_alg».proof.Proof.RefRow
import Idealize.ShloMosaic.Adequacy
import Idealize.ShloMosaic.Init

noncomputable section

namespace Cert.Proof

open Idealize.ShloMosaic Idealize.SL.Sem

/-- The three programs run, fault-free, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to justify. -/
theorem preserves : Cert.preserves_Kernel_KernelIdeal := trivial

/-- From memories that agree on the arguments, the kernel's result array and the reference's are the same function of the
    arguments: the network on every row. -/
theorem algebraic : Cert.algebraic_KernelIdeal_ReferenceIdeal := by
  intro m ρ m' ρ' _ hagree
  refine ⟨fun c => Cert.KernelBlocks.result m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefRow.result_eq]
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
